-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S4096x64 : Shape := ⟨2, ![4096, 64]⟩
abbrev S512x2048 : Shape := ⟨2, ![512, 2048]⟩
abbrev S512x64 : Shape := ⟨2, ![512, 64]⟩
abbrev S2048x1 : Shape := ⟨2, ![2048, 1]⟩
abbrev S512x1 : Shape := ⟨2, ![512, 1]⟩

abbrev nBuf : Space → Nat
  | .hbm => 2
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x64, .f32⟩
  | .local _ .vmem, ⟨0, _⟩ => ⟨S512x2048, .f32⟩
  | .local _ .vmem, ⟨1, _⟩ => ⟨S512x2048, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32_142 : BitVec 32 := 3#32
  let v597 : BitVec 1 := Scalar.cmpi .eq arg1 c3_i32_142
  let v598 : BitVec 32 := Scalar.extui v597
  let c0_i32_143 : BitVec 32 := 0#32
  let v599 : BitVec 1 := Scalar.cmpi .ne v598 c0_i32_143
  v599

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x2048_S512x2048_0_0 : ∀ a, (![0, 0] : Fin 2 → Nat) a + S512x2048.size a ≤ S512x2048.size a
  h_S512x2048 : 0 < S512x2048.numel
  natLt_1_32 : 1 < 32
  bitsLt_bf16_f32 : FTy.bits .bf16 < FTy.bits .f32
  inb_S512x64_S512x1_0_0 : ∀ a, (![0, 0] : Fin 2 → Nat) a + S512x1.size a ≤ S512x64.size a
  h_S512x1 : 0 < S512x1.numel
  shapeCasts_S512x1_S512x1 : S512x1.ShapeCasts S512x1
  inb_S512x64_S512x1_0_1 : ∀ a, (![0, 1] : Fin 2 → Nat) a + S512x1.size a ≤ S512x64.size a
  inb_S512x64_S512x1_0_2 : ∀ a, (![0, 2] : Fin 2 → Nat) a + S512x1.size a ≤ S512x64.size a
  inb_S512x64_S512x1_0_3 : ∀ a, (![0, 3] : Fin 2 → Nat) a + S512x1.size a ≤ S512x64.size a
  inb_S512x64_S512x1_0_4 : ∀ a, (![0, 4] : Fin 2 → Nat) a + S512x1.size a ≤ S512x64.size a
  inb_S512x64_S512x1_0_5 : ∀ a, (![0, 5] : Fin 2 → Nat) a + S512x1.size a ≤ S512x64.size a
  inb_S512x64_S512x1_0_6 : ∀ a, (![0, 6] : Fin 2 → Nat) a + S512x1.size a ≤ S512x64.size a
  inb_S512x64_S512x1_0_7 : ∀ a, (![0, 7] : Fin 2 → Nat) a + S512x1.size a ≤ S512x64.size a
  inb_S512x64_S512x1_0_8 : ∀ a, (![0, 8] : Fin 2 → Nat) a + S512x1.size a ≤ S512x64.size a
  inb_S512x64_S512x1_0_9 : ∀ a, (![0, 9] : Fin 2 → Nat) a + S512x1.size a ≤ S512x64.size a
  inb_S512x64_S512x1_0_10 : ∀ a, (![0, 10] : Fin 2 → Nat) a + S512x1.size a ≤ S512x64.size a
  inb_S512x64_S512x1_0_11 : ∀ a, (![0, 11] : Fin 2 → Nat) a + S512x1.size a ≤ S512x64.size a
  inb_S512x64_S512x1_0_12 : ∀ a, (![0, 12] : Fin 2 → Nat) a + S512x1.size a ≤ S512x64.size a
  inb_S512x64_S512x1_0_13 : ∀ a, (![0, 13] : Fin 2 → Nat) a + S512x1.size a ≤ S512x64.size a
  inb_S512x64_S512x1_0_14 : ∀ a, (![0, 14] : Fin 2 → Nat) a + S512x1.size a ≤ S512x64.size a
  inb_S512x64_S512x1_0_15 : ∀ a, (![0, 15] : Fin 2 → Nat) a + S512x1.size a ≤ S512x64.size a
  inb_S512x64_S512x1_0_16 : ∀ a, (![0, 16] : Fin 2 → Nat) a + S512x1.size a ≤ S512x64.size a
  inb_S512x64_S512x1_0_17 : ∀ a, (![0, 17] : Fin 2 → Nat) a + S512x1.size a ≤ S512x64.size a
  inb_S512x64_S512x1_0_18 : ∀ a, (![0, 18] : Fin 2 → Nat) a + S512x1.size a ≤ S512x64.size a
  inb_S512x64_S512x1_0_19 : ∀ a, (![0, 19] : Fin 2 → Nat) a + S512x1.size a ≤ S512x64.size a
  inb_S512x64_S512x1_0_20 : ∀ a, (![0, 20] : Fin 2 → Nat) a + S512x1.size a ≤ S512x64.size a
  inb_S512x64_S512x1_0_21 : ∀ a, (![0, 21] : Fin 2 → Nat) a + S512x1.size a ≤ S512x64.size a
  inb_S512x64_S512x1_0_22 : ∀ a, (![0, 22] : Fin 2 → Nat) a + S512x1.size a ≤ S512x64.size a
  inb_S512x64_S512x1_0_23 : ∀ a, (![0, 23] : Fin 2 → Nat) a + S512x1.size a ≤ S512x64.size a
  inb_S512x64_S512x1_0_24 : ∀ a, (![0, 24] : Fin 2 → Nat) a + S512x1.size a ≤ S512x64.size a
  inb_S512x64_S512x1_0_25 : ∀ a, (![0, 25] : Fin 2 → Nat) a + S512x1.size a ≤ S512x64.size a
  inb_S512x64_S512x1_0_26 : ∀ a, (![0, 26] : Fin 2 → Nat) a + S512x1.size a ≤ S512x64.size a
  inb_S512x64_S512x1_0_27 : ∀ a, (![0, 27] : Fin 2 → Nat) a + S512x1.size a ≤ S512x64.size a
  inb_S512x64_S512x1_0_28 : ∀ a, (![0, 28] : Fin 2 → Nat) a + S512x1.size a ≤ S512x64.size a
  inb_S512x64_S512x1_0_29 : ∀ a, (![0, 29] : Fin 2 → Nat) a + S512x1.size a ≤ S512x64.size a
  inb_S512x64_S512x1_0_30 : ∀ a, (![0, 30] : Fin 2 → Nat) a + S512x1.size a ≤ S512x64.size a
  inb_S512x64_S512x1_0_31 : ∀ a, (![0, 31] : Fin 2 → Nat) a + S512x1.size a ≤ S512x64.size a
  inb_S512x64_S512x1_0_32 : ∀ a, (![0, 32] : Fin 2 → Nat) a + S512x1.size a ≤ S512x64.size a
  inb_S512x64_S512x1_0_33 : ∀ a, (![0, 33] : Fin 2 → Nat) a + S512x1.size a ≤ S512x64.size a
  inb_S512x64_S512x1_0_34 : ∀ a, (![0, 34] : Fin 2 → Nat) a + S512x1.size a ≤ S512x64.size a
  inb_S512x64_S512x1_0_35 : ∀ a, (![0, 35] : Fin 2 → Nat) a + S512x1.size a ≤ S512x64.size a
  inb_S512x64_S512x1_0_36 : ∀ a, (![0, 36] : Fin 2 → Nat) a + S512x1.size a ≤ S512x64.size a
  inb_S512x64_S512x1_0_37 : ∀ a, (![0, 37] : Fin 2 → Nat) a + S512x1.size a ≤ S512x64.size a
  inb_S512x64_S512x1_0_38 : ∀ a, (![0, 38] : Fin 2 → Nat) a + S512x1.size a ≤ S512x64.size a
  inb_S512x64_S512x1_0_39 : ∀ a, (![0, 39] : Fin 2 → Nat) a + S512x1.size a ≤ S512x64.size a
  inb_S512x64_S512x1_0_40 : ∀ a, (![0, 40] : Fin 2 → Nat) a + S512x1.size a ≤ S512x64.size a
  inb_S512x64_S512x1_0_41 : ∀ a, (![0, 41] : Fin 2 → Nat) a + S512x1.size a ≤ S512x64.size a
  inb_S512x64_S512x1_0_42 : ∀ a, (![0, 42] : Fin 2 → Nat) a + S512x1.size a ≤ S512x64.size a
  inb_S512x64_S512x1_0_43 : ∀ a, (![0, 43] : Fin 2 → Nat) a + S512x1.size a ≤ S512x64.size a
  inb_S512x64_S512x1_0_44 : ∀ a, (![0, 44] : Fin 2 → Nat) a + S512x1.size a ≤ S512x64.size a
  inb_S512x64_S512x1_0_45 : ∀ a, (![0, 45] : Fin 2 → Nat) a + S512x1.size a ≤ S512x64.size a
  inb_S512x64_S512x1_0_46 : ∀ a, (![0, 46] : Fin 2 → Nat) a + S512x1.size a ≤ S512x64.size a
  inb_S512x64_S512x1_0_47 : ∀ a, (![0, 47] : Fin 2 → Nat) a + S512x1.size a ≤ S512x64.size a
  inb_S512x64_S512x1_0_48 : ∀ a, (![0, 48] : Fin 2 → Nat) a + S512x1.size a ≤ S512x64.size a
  inb_S512x64_S512x1_0_49 : ∀ a, (![0, 49] : Fin 2 → Nat) a + S512x1.size a ≤ S512x64.size a
  inb_S512x64_S512x1_0_50 : ∀ a, (![0, 50] : Fin 2 → Nat) a + S512x1.size a ≤ S512x64.size a
  inb_S512x64_S512x1_0_51 : ∀ a, (![0, 51] : Fin 2 → Nat) a + S512x1.size a ≤ S512x64.size a
  inb_S512x64_S512x1_0_52 : ∀ a, (![0, 52] : Fin 2 → Nat) a + S512x1.size a ≤ S512x64.size a
  inb_S512x64_S512x1_0_53 : ∀ a, (![0, 53] : Fin 2 → Nat) a + S512x1.size a ≤ S512x64.size a
  inb_S512x64_S512x1_0_54 : ∀ a, (![0, 54] : Fin 2 → Nat) a + S512x1.size a ≤ S512x64.size a
  inb_S512x64_S512x1_0_55 : ∀ a, (![0, 55] : Fin 2 → Nat) a + S512x1.size a ≤ S512x64.size a
  inb_S512x64_S512x1_0_56 : ∀ a, (![0, 56] : Fin 2 → Nat) a + S512x1.size a ≤ S512x64.size a
  inb_S512x64_S512x1_0_57 : ∀ a, (![0, 57] : Fin 2 → Nat) a + S512x1.size a ≤ S512x64.size a
  inb_S512x64_S512x1_0_58 : ∀ a, (![0, 58] : Fin 2 → Nat) a + S512x1.size a ≤ S512x64.size a
  inb_S512x64_S512x1_0_59 : ∀ a, (![0, 59] : Fin 2 → Nat) a + S512x1.size a ≤ S512x64.size a
  inb_S512x64_S512x1_0_60 : ∀ a, (![0, 60] : Fin 2 → Nat) a + S512x1.size a ≤ S512x64.size a
  inb_S512x64_S512x1_0_61 : ∀ a, (![0, 61] : Fin 2 → Nat) a + S512x1.size a ≤ S512x64.size a
  inb_S512x64_S512x1_0_62 : ∀ a, (![0, 62] : Fin 2 → Nat) a + S512x1.size a ≤ S512x64.size a
  inb_S512x64_S512x1_0_63 : ∀ a, (![0, 63] : Fin 2 → Nat) a + S512x1.size a ≤ S512x64.size a
  dot_S512x2048_S2048x1_S512x1_1_0_0_1_n_n_wf : DotDims.WF S512x2048 S2048x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x8192.size a
  hwx0_0 : ∀ i : grid0.Coords, EltTy.bits .f32 = 32 ∨ (Rect.block (s := S4096x8192) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S4096x64.size a
  hwx0_1 : ∀ i : grid0.Coords, EltTy.bits .f32 = 32 ∨ (Rect.block (s := S4096x64) S512x64.size (cc0_transform_1 i) (hinb0_1 i)).WholeWords (EltTy.packing .f32)

variable [Facts₀]

def dot_S512x2048_S2048x1_S512x1_1_0_0_1_n_n : DotDims S512x2048 S2048x1 S512x1 where
  lhsContracting := [1]
  rhsContracting := [0]
  lhsNonContracting := [0]
  rhsNonContracting := [1]
  lhsBatch := []
  rhsBatch := []
  wf := dot_S512x2048_S2048x1_S512x1_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S4096x8192 : Shape := ⟨2, ![4096, 8192]⟩
abbrev S_ : Shape := ⟨0, ![]⟩
abbrev S4096 : Shape := ⟨1, ![4096]⟩
abbrev S4096x1 : Shape := ⟨2, ![4096, 1]⟩
abbrev S33554432 : Shape := ⟨1, ![33554432]⟩
abbrev S262144 : Shape := ⟨1, ![262144]⟩
abbrev S33554432x1 : Shape := ⟨2, ![33554432, 1]⟩
abbrev S4096x64 : Shape := ⟨2, ![4096, 64]⟩

abbrev nBuf : Space → Nat
  | .hbm => 35
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S_, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4096x8192, .i32⟩
  | .hbm, ⟨13, _⟩ => ⟨S4096x8192, .i32⟩
  | .hbm, ⟨14, _⟩ => ⟨S_, .i32⟩
  | .hbm, ⟨15, _⟩ => ⟨S4096x8192, .i32⟩
  | .hbm, ⟨16, _⟩ => ⟨S4096x8192, .i32⟩
  | .hbm, ⟨17, _⟩ => ⟨S4096, .i32⟩
  | .hbm, ⟨18, _⟩ => ⟨S4096x1, .i32⟩
  | .hbm, ⟨19, _⟩ => ⟨S_, .i32⟩
  | .hbm, ⟨20, _⟩ => ⟨S4096x1, .i32⟩
  | .hbm, ⟨21, _⟩ => ⟨S4096x1, .i32⟩
  | .hbm, ⟨22, _⟩ => ⟨S4096x8192, .i32⟩
  | .hbm, ⟨23, _⟩ => ⟨S4096x8192, .i32⟩
  | .hbm, ⟨24, _⟩ => ⟨S33554432, .i32⟩
  | .hbm, ⟨25, _⟩ => ⟨S_, .f32⟩
  | .hbm, ⟨26, _⟩ => ⟨S33554432, .f32⟩
  | .hbm, ⟨27, _⟩ => ⟨S_, .f32⟩
  | .hbm, ⟨28, _⟩ => ⟨S262144, .f32⟩
  | .hbm, ⟨29, _⟩ => ⟨S33554432x1, .i32⟩
  | .hbm, ⟨30, _⟩ => ⟨S262144, .f32⟩
  | .hbm, ⟨31, _⟩ => ⟨S4096x64, .f32⟩
  | .hbm, ⟨32, _⟩ => ⟨S_, .f32⟩
  | .hbm, ⟨33, _⟩ => ⟨S4096x64, .f32⟩
  | .hbm, ⟨34, _⟩ => ⟨S4096x64, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  shapeCasts_S4096x8192_S33554432 : S4096x8192.ShapeCasts S33554432
  bcast_S_S33554432 : S_.BroadcastsInDim S33554432 (![] : Fin 0 → Fin S33554432.rank)
  bcast_S_S262144 : S_.BroadcastsInDim S262144 (![] : Fin 0 → Fin S262144.rank)
  bcast_S33554432_S33554432x1_0 : S33554432.BroadcastsInDim S33554432x1 (![0] : Fin 1 → Fin S33554432x1.rank)
  shapeCasts_S262144_S4096x64 : S262144.ShapeCasts S4096x64
  bcast_S_S4096x64 : S_.BroadcastsInDim S4096x64 (![] : Fin 0 → Fin S4096x64.rank)
  scatter_S262144_S33554432x1_S33554432_n_0_0_1_wf : ScatterDims.WF S262144 S33554432x1 S33554432 [] [0] [0] 1

variable [Facts₀]

def scatter_S262144_S33554432x1_S33554432_n_0_0_1 : ScatterDims S262144 S33554432x1 S33554432 where
  updateWindowDims := []
  insertedWindowDims := [0]
  scatterDimsToOperandDims := [0]
  indexVectorDim := 1
  wf := scatter_S262144_S33554432x1_S33554432_n_0_0_1_wf

class Facts : Prop extends Facts₀ where

variable [Facts]
-- ==== Proof.Spec.lean ====
/-
  The per-row histogram both programs compute, as one function of the input array.

  A value `v` falls in bin `⌊(v − (−3)) · s⌋` (with `s` the float nearest 64/6), converted to a signed 32-bit
  integer and clamped to `[0, 63]`.  Entry `(r, k)` of the result is the number of entries of row `r` that fall in
  bin `k`, divided by the row length 8192.  The count is a sum of zeros and ones over the row's 8192 columns.
-/
import Idealize.ShloMosaic.PureOps.Ideal
import Idealize.ShloMosaic.Lib.ValueIdx

noncomputable section

namespace Cert.Hist

open Idealize.ShloMosaic Idealize.ShloMosaic.ValueIdx

/-- The bin of one value: scale, round down, convert to a signed 32-bit integer, clamp to `[0, 63]`. -/
def binOf (v : EReal) : BitVec 32 :=
  IntOp.minsi 63#32 (IntOp.maxsi 0#32 (Ideal.fptosi 32 (Ideal.liftRound Int.floor
    ((v - Ideal.ofBits .f32 0xC0400000#32) * Ideal.ofBits .f32 0x412AAAAB#32))))

/-- One if the value falls in bin `k`, zero otherwise. -/
def hit (v : EReal) (k : ℕ) : EReal := if binOf v = BitVec.ofNat 32 k then 1 else 0

/-- How many entries of row `r` fall in bin `k`. -/
def count (x : (⟨2, ![4096, 8192]⟩ : Shape).Idx → EReal) (r : Fin 4096) (k : Fin 64) : EReal :=
  ∑ c : Fin 8192, hit (x (ix2 r c)) k.val

/-- How many entries of row `p` of one 512 × 2048 tile fall in bin `k`. -/
def tileCount (x0 : (⟨2, ![512, 2048]⟩ : Shape).Idx → EReal) (p : Fin 512) (k : Fin 64) : EReal :=
  ∑ c : Fin 2048, hit (x0 (ix2 p c)) k.val

/-- The histogram: entry `(r, k)` is the count of row `r` in bin `k` over the row length. -/
def G (x : (⟨2, ![4096, 8192]⟩ : Shape).Idx → EReal) : (⟨2, ![4096, 64]⟩ : Shape).Idx → EReal :=
  fun i => Ideal.div (count x (i 0) (i 1)) (Ideal.ofBits .f32 0x46000000#32)

end Cert.Hist

end
-- ==== Proof.LibPlainDot.lean ====
/-
  A plain matrix product read at an entry, at the ideal values.

  A kernel's `tpu.matmul` of an M×K by a K×N matrix (contract the left operand's columns against the right operand's rows,
  no batch axis) into the zero splat is, at the entry (a, b), the sum over the contracted coordinate c of
  `A (a, c) · B (c, b)`: no rounding, no chunk order. In particular an entry of the product reads only row `a` of the
  left operand — rows of the left operand that hold nothing meaningful spoil only their own rows of the product.
-/
import Idealize.ShloMosaic.Lib.ValueIdx
import Idealize.ShloMosaic.Lib.Pipeline.Value
import Idealize.ShloMosaic.PureOps.Ideal.Laws

noncomputable section

namespace Cert.PlainDot

open Idealize.ShloMosaic Idealize.ShloMosaic.ValueIdx

/-- A kernel's plain product of an M×K by a K×N matrix into the zero splat, read at an entry, is the sum over the
    contracted coordinate of the products of the entries. At the ideal values. -/
theorem matmul_zero_plain_apply {M K N : ℕ} {φ₁ φ₂ : FTy} (prec : Option ContractPrecision)
    (A : FVec Ideal ⟨2, ![M, K]⟩ φ₁) (B : FVec Ideal ⟨2, ![K, N]⟩ φ₂) (a : Fin M) (b : Fin N) :
    matmul (DotDims.plain M K N) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply, ← Equiv.sum_comp (contrEquiv1 (DotDims.plain M K N) K rfl rfl).symm]
  refine Finset.sum_congr rfl fun c _ => ?_
  have c2 := contrEquiv1_symm_val (DotDims.plain M K N) K rfl rfl c
  have l2 : (DotDims.plain M K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain M K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

end Cert.PlainDot

end
-- ==== Proof.Cols.lean ====
/-
  One bin's column of a tile's counts.

  For a fixed bin `K` the body compares every entry's bin with `K`, turns the one-bit answers into the numbers
  0 and 1, and multiplies the resulting 512 × 2048 matrix of zeros and ones by a column of 2048 ones.  Row `p` of the
  product is therefore the number of entries of row `p` of the tile whose bin is `K`.
-/
import proofs.«108282_j3547642986677_2_alg».proof.Proof.Gen.KernelIdeal.Skeleton
import proofs.«108282_j3547642986677_2_alg».proof.Proof.Spec
import proofs.«108282_j3547642986677_2_alg».proof.Proof.LibPlainDot
import Idealize.ShloMosaic.Lib.Pipeline.Value

noncomputable section

namespace Cert.Hist

open Idealize.ShloMosaic Idealize.ShloMosaic.ValueIdx Idealize.SL.Sem
open Cert.KernelIdeal Cert.KernelIdeal.Gen

/-- The body's bins of a tile are the specification's bin of each entry. -/
theorem bins_apply (x0 : Vec Ideal S512x2048 .f32) (j : S512x2048.Idx) :
    k0_pay6 (F := Ideal) x0 j = binOf (x0 j) := rfl

/-- The column the body stores for bin `K`, from the tile's bins: compare, widen, convert, multiply by ones. -/
def col (v13 : IVec S512x2048 32) (K : BitVec 32) : FVec Ideal S512x1 .f32 :=
  shapeCast S512x1
    (matmul dot_S512x2048_S2048x1_S512x1_1_0_0_1_n_n none
      (truncf .bf16 (sitofp .f32 (extui 32 (cmpi .eq v13 (broadcast S512x2048 K)) natLt_1_32)) bitsLt_bf16_f32)
      (k0_pay7 (F := Ideal)) (constant S512x1 .f32 0x00000000#32))
    shapeCasts_S512x1_S512x1

/-- The one-bit answer of an equality test, widened to 32 bits and read as a signed integer, is 1 or 0. -/
theorem eqWord_toInt (b K : BitVec 32) :
    ((IntOp.cmpi .eq b K).setWidth 32).toInt = if b = K then 1 else 0 := by
  by_cases h : b = K
  · subst h; simp [IntOp.cmpi]
  · have : (b == K) = false := by simpa using h
    simp [IntOp.cmpi, this, h]

/-- The bf16 pattern `0x3F80` is the number one. -/
theorem one_bf16 : Ideal.ofBits .bf16 0x3F80#16 = 1 := by
  simp [Ideal.ofBits, Ideal.ieee]
  rw [← EReal.coe_mul]
  norm_num

/-- Row `p` of bin `K`'s column is the number of entries of row `p` of the tile whose bin is `K`. -/
theorem col_apply (v13 : IVec S512x2048 32) (K : BitVec 32) (p : Fin 512) (q : Fin 1) :
    col v13 K (ix2 p q) = ∑ c : Fin 2048, if v13 (ix2 p c) = K then (1 : EReal) else 0 := by
  unfold col
  rw [shapeCast_self]
  refine (Cert.PlainDot.matmul_zero_plain_apply (M := 512) (K := 2048) (N := 1) none _ _ p q).trans ?_
  refine Finset.sum_congr rfl fun c _ => ?_
  show ((((IntOp.cmpi .eq (v13 (ix2 p c)) K).setWidth 32).toInt : ℝ) : EReal) * Ideal.ofBits .bf16 0x3F80#16 = _
  rw [one_bf16, mul_one, eqWord_toInt]
  split <;> simp

end Cert.Hist

end
-- ==== Proof.Pieces.lean ====
/-
  What one grid point leaves behind, as a function of what it found.

  At every point the body counts, for each of the 512 rows of its tile and each of the 64 bins, the tile's entries
  that fall in the bin — one column of counts per bin, stored side by side — and adds these counts to the running
  totals it keeps between points.  At the first point of a row of tiles the totals start from zero; at the last one
  the totals, divided by the row length, are written out.
-/
import proofs.«108282_j3547642986677_2_alg».proof.Proof.Gen.KernelIdeal.Frame
import proofs.«108282_j3547642986677_2_alg».proof.Proof.Spec
import proofs.«108282_j3547642986677_2_alg».proof.Proof.Cols
import Idealize.ShloMosaic.Lib.Pipeline.Value

set_option maxRecDepth 16384

noncomputable section

namespace Cert.Hist

open Idealize.ShloMosaic Idealize.ShloMosaic.TcCoe Idealize.ShloMosaic.Tactic Idealize.ShloMosaic.ValueIdx Idealize.SL.Sem
open Cert.KernelIdeal Cert.KernelIdeal.Gen

/-- The running totals after a point: what the point found, plus the tile's counts. -/
def addTile (acc : S512x64.Idx → EReal) (x0 : S512x2048.Idx → EReal) : S512x64.Idx → EReal :=
  fun y => acc y + tileCount x0 (y 0) (y 1)

/-- The tile's counts as one function of the block index. -/
def tileG (x0 : S512x2048.Idx → EReal) : S512x64.Idx → EReal := fun y => tileCount x0 (y 0) (y 1)

theorem hz2 : (![0, 0] : Fin 2 → ℕ) = fun _ => 0 := by
  funext a; match a with | ⟨0, _⟩ => rfl | ⟨1, _⟩ => rfl

/-- Bin `k`'s column, stored at column `k` of the per-point counts, holds the tile's counts there. -/
theorem colpiece (x0 : Vec Ideal S512x2048 .f32) (k : ℕ) (hk : k < 64)
    (inb : ∀ a, (![0, k] : Fin 2 → ℕ) a + S512x1.size a ≤ S512x64.size a) (x : S512x1.Idx) :
    col (k0_pay6 (F := Ideal) x0) (BitVec.ofNat 32 k) x
      = tileG x0 ((Rect.unit (s := S512x64) ![0, k] S512x1.size inb).emb x) := by
  obtain ⟨p, q, rfl⟩ : ∃ (p : Fin 512) (q : Fin 1), x = ix2 p q := ⟨x 0, x 1, eq_ix2 x⟩
  rw [col_apply]
  unfold tileG tileCount
  refine Finset.sum_congr rfl fun c _ => ?_
  rw [bins_apply]
  unfold hit
  have e0 : ((Rect.unit (s := S512x64) ![0, k] S512x1.size inb).emb (ix2 p q)) 0 = p :=
    Fin.ext (by show 0 + 1 * p.val = p.val; omega)
  have e1 : (((Rect.unit (s := S512x64) ![0, k] S512x1.size inb).emb (ix2 p q)) 1).val = k := by
    show k + 1 * q.val = k; have := q.isLt; omega
  rw [e0, e1]

/-- A load of the whole block after stores whose payloads all agree with one function of the block index, and
    which cover the block, reads that function. -/
theorem readCov_of_pieces {sg : RefSig} {κ : Kind} {sp : Space} (v : View sg κ sp S512x64 .f32)
    (L : List (View.Piece (Elt Ideal) S512x64 .f32)) (G : S512x64.Idx → EReal)
    (inb : ∀ a, (![0, 0] : Fin 2 → ℕ) a + S512x64.size a ≤ S512x64.size a)
    (hL : ∀ p ∈ L, ∀ x : p.1.shape.Idx, p.2 x = G (p.1.emb x)) (hc : ∀ y, ∃ p ∈ L, y ∈ p.1.set) :
    v.readCov L (Rect.unit (s := S512x64) ![0, 0] S512x64.size inb).toLoadRect = G := by
  rw [View.readCov_eq_canon_ld _ _ _ hc, View.ld_unit_zero hz2]
  funext y; exact View.canon_apply_of_pieces G L hL y (hc y)

set_option maxHeartbeats 8000000 in
/-- At the first point of a row of tiles the totals are the tile's counts over zero. -/
theorem sout_A (c : Dev nD) (i : grid0.Coords) (arg2 : Memref sig .tc .vmem S512x2048 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hc0 : cond0_0 i) (hc1 : ¬cond0_1 i)
    (x0 : Vec Ideal S512x2048 .f32) :
    sout0_A_0 (F := Ideal) c i arg2 harg2 arg3 harg3 arg4 harg4 arg5 harg5 hc0 hc1 x0 = addTile (fun _ => 0) x0 := by
  unfold sout0_A_0
  rw [View.read_writes_eq_canon _ _ _ (scover0_A_0 c i arg2 harg2 arg3 harg3 arg4 harg4 arg5 harg5 hc0 hc1 x0)]
  unfold kernelRun0_A
  dsimp only
  sl_unfold_words
  rw [View.canon_cons_unit_zero hz2]
  simp only [View.readAt_eq_ld, harg2.read_unread, View.ld_unit_zero (S := S512x2048) hz2]
  rw [View.readCov_unit_zero (S := S512x64) _ hz2]
  rw [readCov_of_pieces arg5.view _ (tileG x0) _ ?hL ?hc]
  · unfold k0_pay3 k0_pay5; dsimp only; rw [shapeCast_self, shapeCast_self]
    funext y
    show Ideal.ofBits .f32 0x00000000#32 + tileG x0 y = 0 + tileG x0 y
    rw [Ideal.ofBits_zero_f32]
  case hc => exact View.cover_of_tiledL _ S512x1.size (by sl_kernel_rfl)
  case hL =>
    intro p hp x
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact colpiece x0 63 (by omega) inb_S512x64_S512x1_0_63 x
    · exact colpiece x0 62 (by omega) inb_S512x64_S512x1_0_62 x
    · exact colpiece x0 61 (by omega) inb_S512x64_S512x1_0_61 x
    · exact colpiece x0 60 (by omega) inb_S512x64_S512x1_0_60 x
    · exact colpiece x0 59 (by omega) inb_S512x64_S512x1_0_59 x
    · exact colpiece x0 58 (by omega) inb_S512x64_S512x1_0_58 x
    · exact colpiece x0 57 (by omega) inb_S512x64_S512x1_0_57 x
    · exact colpiece x0 56 (by omega) inb_S512x64_S512x1_0_56 x
    · exact colpiece x0 55 (by omega) inb_S512x64_S512x1_0_55 x
    · exact colpiece x0 54 (by omega) inb_S512x64_S512x1_0_54 x
    · exact colpiece x0 53 (by omega) inb_S512x64_S512x1_0_53 x
    · exact colpiece x0 52 (by omega) inb_S512x64_S512x1_0_52 x
    · exact colpiece x0 51 (by omega) inb_S512x64_S512x1_0_51 x
    · exact colpiece x0 50 (by omega) inb_S512x64_S512x1_0_50 x
    · exact colpiece x0 49 (by omega) inb_S512x64_S512x1_0_49 x
    · exact colpiece x0 48 (by omega) inb_S512x64_S512x1_0_48 x
    · exact colpiece x0 47 (by omega) inb_S512x64_S512x1_0_47 x
    · exact colpiece x0 46 (by omega) inb_S512x64_S512x1_0_46 x
    · exact colpiece x0 45 (by omega) inb_S512x64_S512x1_0_45 x
    · exact colpiece x0 44 (by omega) inb_S512x64_S512x1_0_44 x
    · exact colpiece x0 43 (by omega) inb_S512x64_S512x1_0_43 x
    · exact colpiece x0 42 (by omega) inb_S512x64_S512x1_0_42 x
    · exact colpiece x0 41 (by omega) inb_S512x64_S512x1_0_41 x
    · exact colpiece x0 40 (by omega) inb_S512x64_S512x1_0_40 x
    · exact colpiece x0 39 (by omega) inb_S512x64_S512x1_0_39 x
    · exact colpiece x0 38 (by omega) inb_S512x64_S512x1_0_38 x
    · exact colpiece x0 37 (by omega) inb_S512x64_S512x1_0_37 x
    · exact colpiece x0 36 (by omega) inb_S512x64_S512x1_0_36 x
    · exact colpiece x0 35 (by omega) inb_S512x64_S512x1_0_35 x
    · exact colpiece x0 34 (by omega) inb_S512x64_S512x1_0_34 x
    · exact colpiece x0 33 (by omega) inb_S512x64_S512x1_0_33 x
    · exact colpiece x0 32 (by omega) inb_S512x64_S512x1_0_32 x
    · exact colpiece x0 31 (by omega) inb_S512x64_S512x1_0_31 x
    · exact colpiece x0 30 (by omega) inb_S512x64_S512x1_0_30 x
    · exact colpiece x0 29 (by omega) inb_S512x64_S512x1_0_29 x
    · exact colpiece x0 28 (by omega) inb_S512x64_S512x1_0_28 x
    · exact colpiece x0 27 (by omega) inb_S512x64_S512x1_0_27 x
    · exact colpiece x0 26 (by omega) inb_S512x64_S512x1_0_26 x
    · exact colpiece x0 25 (by omega) inb_S512x64_S512x1_0_25 x
    · exact colpiece x0 24 (by omega) inb_S512x64_S512x1_0_24 x
    · exact colpiece x0 23 (by omega) inb_S512x64_S512x1_0_23 x
    · exact colpiece x0 22 (by omega) inb_S512x64_S512x1_0_22 x
    · exact colpiece x0 21 (by omega) inb_S512x64_S512x1_0_21 x
    · exact colpiece x0 20 (by omega) inb_S512x64_S512x1_0_20 x
    · exact colpiece x0 19 (by omega) inb_S512x64_S512x1_0_19 x
    · exact colpiece x0 18 (by omega) inb_S512x64_S512x1_0_18 x
    · exact colpiece x0 17 (by omega) inb_S512x64_S512x1_0_17 x
    · exact colpiece x0 16 (by omega) inb_S512x64_S512x1_0_16 x
    · exact colpiece x0 15 (by omega) inb_S512x64_S512x1_0_15 x
    · exact colpiece x0 14 (by omega) inb_S512x64_S512x1_0_14 x
    · exact colpiece x0 13 (by omega) inb_S512x64_S512x1_0_13 x
    · exact colpiece x0 12 (by omega) inb_S512x64_S512x1_0_12 x
    · exact colpiece x0 11 (by omega) inb_S512x64_S512x1_0_11 x
    · exact colpiece x0 10 (by omega) inb_S512x64_S512x1_0_10 x
    · exact colpiece x0 9 (by omega) inb_S512x64_S512x1_0_9 x
    · exact colpiece x0 8 (by omega) inb_S512x64_S512x1_0_8 x
    · exact colpiece x0 7 (by omega) inb_S512x64_S512x1_0_7 x
    · exact colpiece x0 6 (by omega) inb_S512x64_S512x1_0_6 x
    · exact colpiece x0 5 (by omega) inb_S512x64_S512x1_0_5 x
    · exact colpiece x0 4 (by omega) inb_S512x64_S512x1_0_4 x
    · exact colpiece x0 3 (by omega) inb_S512x64_S512x1_0_3 x
    · exact colpiece x0 2 (by omega) inb_S512x64_S512x1_0_2 x
    · exact colpiece x0 1 (by omega) inb_S512x64_S512x1_0_1 x
    · exact colpiece x0 0 (by omega) inb_S512x64_S512x1_0_0 x

set_option maxHeartbeats 8000000 in
/-- At a middle point the totals grow by the tile's counts. -/
theorem sout_B (c : Dev nD) (i : grid0.Coords) (arg2 : Memref sig .tc .vmem S512x2048 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : ¬cond0_1 i)
    (x0 : Vec Ideal S512x2048 .f32) (xs0 : Vec Ideal S512x64 .f32) :
    sout0_B_0 (F := Ideal) c i arg2 harg2 arg3 harg3 arg4 harg4 arg5 harg5 hc0 hc1 x0 xs0 = addTile xs0 x0 := by
  unfold sout0_B_0
  rw [View.read_writes_eq_canon _ _ _ (scover0_B_0 c i arg2 harg2 arg3 harg3 arg4 harg4 arg5 harg5 hc0 hc1 x0 xs0)]
  unfold kernelRun0_B
  dsimp only
  sl_unfold_words
  rw [View.canon_unit_zero hz2]
  simp only [View.readAt_eq_ld, harg4.read_unread, harg2.read_unread, View.ld_unit_zero (S := S512x64) hz2, View.ld_unit_zero (S := S512x2048) hz2]
  rw [readCov_of_pieces arg5.view _ (tileG x0) _ ?hL ?hc]
  · unfold k0_pay3; dsimp only; rw [shapeCast_self]; rfl
  case hc => exact View.cover_of_tiledL _ S512x1.size (by sl_kernel_rfl)
  case hL =>
    intro p hp x
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact colpiece x0 63 (by omega) inb_S512x64_S512x1_0_63 x
    · exact colpiece x0 62 (by omega) inb_S512x64_S512x1_0_62 x
    · exact colpiece x0 61 (by omega) inb_S512x64_S512x1_0_61 x
    · exact colpiece x0 60 (by omega) inb_S512x64_S512x1_0_60 x
    · exact colpiece x0 59 (by omega) inb_S512x64_S512x1_0_59 x
    · exact colpiece x0 58 (by omega) inb_S512x64_S512x1_0_58 x
    · exact colpiece x0 57 (by omega) inb_S512x64_S512x1_0_57 x
    · exact colpiece x0 56 (by omega) inb_S512x64_S512x1_0_56 x
    · exact colpiece x0 55 (by omega) inb_S512x64_S512x1_0_55 x
    · exact colpiece x0 54 (by omega) inb_S512x64_S512x1_0_54 x
    · exact colpiece x0 53 (by omega) inb_S512x64_S512x1_0_53 x
    · exact colpiece x0 52 (by omega) inb_S512x64_S512x1_0_52 x
    · exact colpiece x0 51 (by omega) inb_S512x64_S512x1_0_51 x
    · exact colpiece x0 50 (by omega) inb_S512x64_S512x1_0_50 x
    · exact colpiece x0 49 (by omega) inb_S512x64_S512x1_0_49 x
    · exact colpiece x0 48 (by omega) inb_S512x64_S512x1_0_48 x
    · exact colpiece x0 47 (by omega) inb_S512x64_S512x1_0_47 x
    · exact colpiece x0 46 (by omega) inb_S512x64_S512x1_0_46 x
    · exact colpiece x0 45 (by omega) inb_S512x64_S512x1_0_45 x
    · exact colpiece x0 44 (by omega) inb_S512x64_S512x1_0_44 x
    · exact colpiece x0 43 (by omega) inb_S512x64_S512x1_0_43 x
    · exact colpiece x0 42 (by omega) inb_S512x64_S512x1_0_42 x
    · exact colpiece x0 41 (by omega) inb_S512x64_S512x1_0_41 x
    · exact colpiece x0 40 (by omega) inb_S512x64_S512x1_0_40 x
    · exact colpiece x0 39 (by omega) inb_S512x64_S512x1_0_39 x
    · exact colpiece x0 38 (by omega) inb_S512x64_S512x1_0_38 x
    · exact colpiece x0 37 (by omega) inb_S512x64_S512x1_0_37 x
    · exact colpiece x0 36 (by omega) inb_S512x64_S512x1_0_36 x
    · exact colpiece x0 35 (by omega) inb_S512x64_S512x1_0_35 x
    · exact colpiece x0 34 (by omega) inb_S512x64_S512x1_0_34 x
    · exact colpiece x0 33 (by omega) inb_S512x64_S512x1_0_33 x
    · exact colpiece x0 32 (by omega) inb_S512x64_S512x1_0_32 x
    · exact colpiece x0 31 (by omega) inb_S512x64_S512x1_0_31 x
    · exact colpiece x0 30 (by omega) inb_S512x64_S512x1_0_30 x
    · exact colpiece x0 29 (by omega) inb_S512x64_S512x1_0_29 x
    · exact colpiece x0 28 (by omega) inb_S512x64_S512x1_0_28 x
    · exact colpiece x0 27 (by omega) inb_S512x64_S512x1_0_27 x
    · exact colpiece x0 26 (by omega) inb_S512x64_S512x1_0_26 x
    · exact colpiece x0 25 (by omega) inb_S512x64_S512x1_0_25 x
    · exact colpiece x0 24 (by omega) inb_S512x64_S512x1_0_24 x
    · exact colpiece x0 23 (by omega) inb_S512x64_S512x1_0_23 x
    · exact colpiece x0 22 (by omega) inb_S512x64_S512x1_0_22 x
    · exact colpiece x0 21 (by omega) inb_S512x64_S512x1_0_21 x
    · exact colpiece x0 20 (by omega) inb_S512x64_S512x1_0_20 x
    · exact colpiece x0 19 (by omega) inb_S512x64_S512x1_0_19 x
    · exact colpiece x0 18 (by omega) inb_S512x64_S512x1_0_18 x
    · exact colpiece x0 17 (by omega) inb_S512x64_S512x1_0_17 x
    · exact colpiece x0 16 (by omega) inb_S512x64_S512x1_0_16 x
    · exact colpiece x0 15 (by omega) inb_S512x64_S512x1_0_15 x
    · exact colpiece x0 14 (by omega) inb_S512x64_S512x1_0_14 x
    · exact colpiece x0 13 (by omega) inb_S512x64_S512x1_0_13 x
    · exact colpiece x0 12 (by omega) inb_S512x64_S512x1_0_12 x
    · exact colpiece x0 11 (by omega) inb_S512x64_S512x1_0_11 x
    · exact colpiece x0 10 (by omega) inb_S512x64_S512x1_0_10 x
    · exact colpiece x0 9 (by omega) inb_S512x64_S512x1_0_9 x
    · exact colpiece x0 8 (by omega) inb_S512x64_S512x1_0_8 x
    · exact colpiece x0 7 (by omega) inb_S512x64_S512x1_0_7 x
    · exact colpiece x0 6 (by omega) inb_S512x64_S512x1_0_6 x
    · exact colpiece x0 5 (by omega) inb_S512x64_S512x1_0_5 x
    · exact colpiece x0 4 (by omega) inb_S512x64_S512x1_0_4 x
    · exact colpiece x0 3 (by omega) inb_S512x64_S512x1_0_3 x
    · exact colpiece x0 2 (by omega) inb_S512x64_S512x1_0_2 x
    · exact colpiece x0 1 (by omega) inb_S512x64_S512x1_0_1 x
    · exact colpiece x0 0 (by omega) inb_S512x64_S512x1_0_0 x

set_option maxHeartbeats 8000000 in
/-- At the last point of a row of tiles the totals grow by the tile's counts … -/
theorem sout_C (c : Dev nD) (i : grid0.Coords) (arg2 : Memref sig .tc .vmem S512x2048 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : cond0_1 i)
    (x0 : Vec Ideal S512x2048 .f32) (xs0 : Vec Ideal S512x64 .f32) :
    sout0_C_0 (F := Ideal) c i arg2 harg2 arg3 harg3 arg4 harg4 arg5 harg5 hc0 hc1 x0 xs0 = addTile xs0 x0 := by
  unfold sout0_C_0
  rw [View.read_writes_eq_canon _ _ _ (scover0_C_0 c i arg2 harg2 arg3 harg3 arg4 harg4 arg5 harg5 hc0 hc1 x0 xs0)]
  unfold kernelRun0_C
  dsimp only
  sl_unfold_words
  rw [View.canon_unit_zero hz2]
  simp only [View.readAt_eq_ld, harg4.read_unread, harg2.read_unread, View.ld_unit_zero (S := S512x64) hz2, View.ld_unit_zero (S := S512x2048) hz2]
  rw [readCov_of_pieces arg5.view _ (tileG x0) _ ?hL ?hc]
  · unfold k0_pay3; dsimp only; rw [shapeCast_self]; rfl
  case hc => exact View.cover_of_tiledL _ S512x1.size (by sl_kernel_rfl)
  case hL =>
    intro p hp x
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact colpiece x0 63 (by omega) inb_S512x64_S512x1_0_63 x
    · exact colpiece x0 62 (by omega) inb_S512x64_S512x1_0_62 x
    · exact colpiece x0 61 (by omega) inb_S512x64_S512x1_0_61 x
    · exact colpiece x0 60 (by omega) inb_S512x64_S512x1_0_60 x
    · exact colpiece x0 59 (by omega) inb_S512x64_S512x1_0_59 x
    · exact colpiece x0 58 (by omega) inb_S512x64_S512x1_0_58 x
    · exact colpiece x0 57 (by omega) inb_S512x64_S512x1_0_57 x
    · exact colpiece x0 56 (by omega) inb_S512x64_S512x1_0_56 x
    · exact colpiece x0 55 (by omega) inb_S512x64_S512x1_0_55 x
    · exact colpiece x0 54 (by omega) inb_S512x64_S512x1_0_54 x
    · exact colpiece x0 53 (by omega) inb_S512x64_S512x1_0_53 x
    · exact colpiece x0 52 (by omega) inb_S512x64_S512x1_0_52 x
    · exact colpiece x0 51 (by omega) inb_S512x64_S512x1_0_51 x
    · exact colpiece x0 50 (by omega) inb_S512x64_S512x1_0_50 x
    · exact colpiece x0 49 (by omega) inb_S512x64_S512x1_0_49 x
    · exact colpiece x0 48 (by omega) inb_S512x64_S512x1_0_48 x
    · exact colpiece x0 47 (by omega) inb_S512x64_S512x1_0_47 x
    · exact colpiece x0 46 (by omega) inb_S512x64_S512x1_0_46 x
    · exact colpiece x0 45 (by omega) inb_S512x64_S512x1_0_45 x
    · exact colpiece x0 44 (by omega) inb_S512x64_S512x1_0_44 x
    · exact colpiece x0 43 (by omega) inb_S512x64_S512x1_0_43 x
    · exact colpiece x0 42 (by omega) inb_S512x64_S512x1_0_42 x
    · exact colpiece x0 41 (by omega) inb_S512x64_S512x1_0_41 x
    · exact colpiece x0 40 (by omega) inb_S512x64_S512x1_0_40 x
    · exact colpiece x0 39 (by omega) inb_S512x64_S512x1_0_39 x
    · exact colpiece x0 38 (by omega) inb_S512x64_S512x1_0_38 x
    · exact colpiece x0 37 (by omega) inb_S512x64_S512x1_0_37 x
    · exact colpiece x0 36 (by omega) inb_S512x64_S512x1_0_36 x
    · exact colpiece x0 35 (by omega) inb_S512x64_S512x1_0_35 x
    · exact colpiece x0 34 (by omega) inb_S512x64_S512x1_0_34 x
    · exact colpiece x0 33 (by omega) inb_S512x64_S512x1_0_33 x
    · exact colpiece x0 32 (by omega) inb_S512x64_S512x1_0_32 x
    · exact colpiece x0 31 (by omega) inb_S512x64_S512x1_0_31 x
    · exact colpiece x0 30 (by omega) inb_S512x64_S512x1_0_30 x
    · exact colpiece x0 29 (by omega) inb_S512x64_S512x1_0_29 x
    · exact colpiece x0 28 (by omega) inb_S512x64_S512x1_0_28 x
    · exact colpiece x0 27 (by omega) inb_S512x64_S512x1_0_27 x
    · exact colpiece x0 26 (by omega) inb_S512x64_S512x1_0_26 x
    · exact colpiece x0 25 (by omega) inb_S512x64_S512x1_0_25 x
    · exact colpiece x0 24 (by omega) inb_S512x64_S512x1_0_24 x
    · exact colpiece x0 23 (by omega) inb_S512x64_S512x1_0_23 x
    · exact colpiece x0 22 (by omega) inb_S512x64_S512x1_0_22 x
    · exact colpiece x0 21 (by omega) inb_S512x64_S512x1_0_21 x
    · exact colpiece x0 20 (by omega) inb_S512x64_S512x1_0_20 x
    · exact colpiece x0 19 (by omega) inb_S512x64_S512x1_0_19 x
    · exact colpiece x0 18 (by omega) inb_S512x64_S512x1_0_18 x
    · exact colpiece x0 17 (by omega) inb_S512x64_S512x1_0_17 x
    · exact colpiece x0 16 (by omega) inb_S512x64_S512x1_0_16 x
    · exact colpiece x0 15 (by omega) inb_S512x64_S512x1_0_15 x
    · exact colpiece x0 14 (by omega) inb_S512x64_S512x1_0_14 x
    · exact colpiece x0 13 (by omega) inb_S512x64_S512x1_0_13 x
    · exact colpiece x0 12 (by omega) inb_S512x64_S512x1_0_12 x
    · exact colpiece x0 11 (by omega) inb_S512x64_S512x1_0_11 x
    · exact colpiece x0 10 (by omega) inb_S512x64_S512x1_0_10 x
    · exact colpiece x0 9 (by omega) inb_S512x64_S512x1_0_9 x
    · exact colpiece x0 8 (by omega) inb_S512x64_S512x1_0_8 x
    · exact colpiece x0 7 (by omega) inb_S512x64_S512x1_0_7 x
    · exact colpiece x0 6 (by omega) inb_S512x64_S512x1_0_6 x
    · exact colpiece x0 5 (by omega) inb_S512x64_S512x1_0_5 x
    · exact colpiece x0 4 (by omega) inb_S512x64_S512x1_0_4 x
    · exact colpiece x0 3 (by omega) inb_S512x64_S512x1_0_3 x
    · exact colpiece x0 2 (by omega) inb_S512x64_S512x1_0_2 x
    · exact colpiece x0 1 (by omega) inb_S512x64_S512x1_0_1 x
    · exact colpiece x0 0 (by omega) inb_S512x64_S512x1_0_0 x

set_option maxHeartbeats 8000000 in
/-- … and the output block is those totals over the row length. -/
theorem out_C (c : Dev nD) (i : grid0.Coords) (arg2 : Memref sig .tc .vmem S512x2048 .f32) (harg2 : arg2.IsWhole) (arg3 : Memref sig .tc .vmem S512x64 .f32) (harg3 : arg3.IsWhole) (arg4 : Memref sig .tc .vmem S512x64 .f32) (harg4 : arg4.IsWhole) (arg5 : Memref sig .tc .vmem S512x64 .f32) (harg5 : arg5.IsWhole) (hc0 : ¬cond0_0 i) (hc1 : cond0_1 i)
    (x0 : Vec Ideal S512x2048 .f32) (xs0 : Vec Ideal S512x64 .f32) :
    out0_C_1 (F := Ideal) c i arg2 harg2 arg3 harg3 arg4 harg4 arg5 harg5 hc0 hc1 x0 xs0
      = fun y => Ideal.div (addTile xs0 x0 y) (Ideal.ofBits .f32 0x46000000#32) := by
  unfold out0_C_1
  rw [View.read_writes_eq_canon _ _ _ (cover0_C_1 c i arg2 harg2 arg3 harg3 arg4 harg4 arg5 harg5 hc0 hc1 x0 xs0)]
  unfold kernelRun0_C
  dsimp only
  sl_unfold_words
  rw [View.canon_unit_zero hz2]
  simp only [View.readAt_eq_ld, harg4.read_unread, harg2.read_unread, View.ld_unit_zero (S := S512x64) hz2, View.ld_unit_zero (S := S512x2048) hz2]
  rw [View.readCov_unit_zero (S := S512x64) _ hz2]
  rw [readCov_of_pieces arg5.view _ (tileG x0) _ ?hL ?hc]
  · unfold k0_pay4 k0_pay3; dsimp only; rw [shapeCast_self]; rfl
  case hc => exact View.cover_of_tiledL _ S512x1.size (by sl_kernel_rfl)
  case hL =>
    intro p hp x
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact colpiece x0 63 (by omega) inb_S512x64_S512x1_0_63 x
    · exact colpiece x0 62 (by omega) inb_S512x64_S512x1_0_62 x
    · exact colpiece x0 61 (by omega) inb_S512x64_S512x1_0_61 x
    · exact colpiece x0 60 (by omega) inb_S512x64_S512x1_0_60 x
    · exact colpiece x0 59 (by omega) inb_S512x64_S512x1_0_59 x
    · exact colpiece x0 58 (by omega) inb_S512x64_S512x1_0_58 x
    · exact colpiece x0 57 (by omega) inb_S512x64_S512x1_0_57 x
    · exact colpiece x0 56 (by omega) inb_S512x64_S512x1_0_56 x
    · exact colpiece x0 55 (by omega) inb_S512x64_S512x1_0_55 x
    · exact colpiece x0 54 (by omega) inb_S512x64_S512x1_0_54 x
    · exact colpiece x0 53 (by omega) inb_S512x64_S512x1_0_53 x
    · exact colpiece x0 52 (by omega) inb_S512x64_S512x1_0_52 x
    · exact colpiece x0 51 (by omega) inb_S512x64_S512x1_0_51 x
    · exact colpiece x0 50 (by omega) inb_S512x64_S512x1_0_50 x
    · exact colpiece x0 49 (by omega) inb_S512x64_S512x1_0_49 x
    · exact colpiece x0 48 (by omega) inb_S512x64_S512x1_0_48 x
    · exact colpiece x0 47 (by omega) inb_S512x64_S512x1_0_47 x
    · exact colpiece x0 46 (by omega) inb_S512x64_S512x1_0_46 x
    · exact colpiece x0 45 (by omega) inb_S512x64_S512x1_0_45 x
    · exact colpiece x0 44 (by omega) inb_S512x64_S512x1_0_44 x
    · exact colpiece x0 43 (by omega) inb_S512x64_S512x1_0_43 x
    · exact colpiece x0 42 (by omega) inb_S512x64_S512x1_0_42 x
    · exact colpiece x0 41 (by omega) inb_S512x64_S512x1_0_41 x
    · exact colpiece x0 40 (by omega) inb_S512x64_S512x1_0_40 x
    · exact colpiece x0 39 (by omega) inb_S512x64_S512x1_0_39 x
    · exact colpiece x0 38 (by omega) inb_S512x64_S512x1_0_38 x
    · exact colpiece x0 37 (by omega) inb_S512x64_S512x1_0_37 x
    · exact colpiece x0 36 (by omega) inb_S512x64_S512x1_0_36 x
    · exact colpiece x0 35 (by omega) inb_S512x64_S512x1_0_35 x
    · exact colpiece x0 34 (by omega) inb_S512x64_S512x1_0_34 x
    · exact colpiece x0 33 (by omega) inb_S512x64_S512x1_0_33 x
    · exact colpiece x0 32 (by omega) inb_S512x64_S512x1_0_32 x
    · exact colpiece x0 31 (by omega) inb_S512x64_S512x1_0_31 x
    · exact colpiece x0 30 (by omega) inb_S512x64_S512x1_0_30 x
    · exact colpiece x0 29 (by omega) inb_S512x64_S512x1_0_29 x
    · exact colpiece x0 28 (by omega) inb_S512x64_S512x1_0_28 x
    · exact colpiece x0 27 (by omega) inb_S512x64_S512x1_0_27 x
    · exact colpiece x0 26 (by omega) inb_S512x64_S512x1_0_26 x
    · exact colpiece x0 25 (by omega) inb_S512x64_S512x1_0_25 x
    · exact colpiece x0 24 (by omega) inb_S512x64_S512x1_0_24 x
    · exact colpiece x0 23 (by omega) inb_S512x64_S512x1_0_23 x
    · exact colpiece x0 22 (by omega) inb_S512x64_S512x1_0_22 x
    · exact colpiece x0 21 (by omega) inb_S512x64_S512x1_0_21 x
    · exact colpiece x0 20 (by omega) inb_S512x64_S512x1_0_20 x
    · exact colpiece x0 19 (by omega) inb_S512x64_S512x1_0_19 x
    · exact colpiece x0 18 (by omega) inb_S512x64_S512x1_0_18 x
    · exact colpiece x0 17 (by omega) inb_S512x64_S512x1_0_17 x
    · exact colpiece x0 16 (by omega) inb_S512x64_S512x1_0_16 x
    · exact colpiece x0 15 (by omega) inb_S512x64_S512x1_0_15 x
    · exact colpiece x0 14 (by omega) inb_S512x64_S512x1_0_14 x
    · exact colpiece x0 13 (by omega) inb_S512x64_S512x1_0_13 x
    · exact colpiece x0 12 (by omega) inb_S512x64_S512x1_0_12 x
    · exact colpiece x0 11 (by omega) inb_S512x64_S512x1_0_11 x
    · exact colpiece x0 10 (by omega) inb_S512x64_S512x1_0_10 x
    · exact colpiece x0 9 (by omega) inb_S512x64_S512x1_0_9 x
    · exact colpiece x0 8 (by omega) inb_S512x64_S512x1_0_8 x
    · exact colpiece x0 7 (by omega) inb_S512x64_S512x1_0_7 x
    · exact colpiece x0 6 (by omega) inb_S512x64_S512x1_0_6 x
    · exact colpiece x0 5 (by omega) inb_S512x64_S512x1_0_5 x
    · exact colpiece x0 4 (by omega) inb_S512x64_S512x1_0_4 x
    · exact colpiece x0 3 (by omega) inb_S512x64_S512x1_0_3 x
    · exact colpiece x0 2 (by omega) inb_S512x64_S512x1_0_2 x
    · exact colpiece x0 1 (by omega) inb_S512x64_S512x1_0_1 x
    · exact colpiece x0 0 (by omega) inb_S512x64_S512x1_0_0 x

end Cert.Hist

end
-- ==== Proof.KernelRun.lean ====
/-
  From what each grid point leaves to the kernel's whole result.

  The grid has 8 × 4 points.  Point `t = 4a + b` stages tile `(a, b)` of the input — rows `512a …`, columns
  `2048b …` — and holds block `(a, 0)` of the output.  The totals kept between points are, after point `4a + b`,
  the counts of tiles `0 … b` of the row of tiles `a`, added up from zero.  At `b = 3` they are the whole rows'
  counts, because a row's 8192 columns are four runs of 2048; the output block written back there is those counts
  over the row length, which is block `a` of the histogram.  Every entry of the output lies in such a block, so the
  output array ends as the histogram of the input array.
-/
import proofs.«108282_j3547642986677_2_alg».proof.Proof.Gen.KernelIdeal.Value
import proofs.«108282_j3547642986677_2_alg».proof.Proof.Pieces

noncomputable section

namespace Cert.Hist

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Counting: a row of 8192 columns is four runs of 2048 -/

/-- A sum over `k · n` consecutive naturals is the sum over `k` runs of `n`. -/
theorem sum_range_runs {β : Type*} [AddCommMonoid β] (g : ℕ → β) (n k : ℕ) :
    ∑ i ∈ Finset.range (k * n), g i = ∑ s ∈ Finset.range k, ∑ j ∈ Finset.range n, g (n * s + j) := by
  induction k with
  | zero => simp
  | succ k ih =>
    rw [Nat.succ_mul, Finset.sum_range_add, ih, Finset.sum_range_succ, Nat.mul_comm k n]

/-- The count of a row is the sum of the counts of its four tiles: both are sums of the same zeros and ones, the
    row's 8192 columns read as four runs of 2048. -/
theorem count_eq_tiles (x : S4096x8192.Idx → EReal) (r : Fin 4096) (k : Fin 64)
    (T : ℕ → (S512x2048.Idx → EReal)) (p : Fin 512)
    (hT : ∀ s, s < 4 → ∀ (j : ℕ) (hj : j < 2048) (h : 2048 * s + j < 8192),
      T s (ix2 p ⟨j, hj⟩) = x (ix2 r ⟨2048 * s + j, h⟩)) :
    count x r k = ∑ s ∈ Finset.range 4, tileCount (T s) p k := by
  let g : ℕ → EReal := fun n => if h : n < 8192 then hit (x (ix2 r ⟨n, h⟩)) k.val else 0
  have hrow : count x r k = ∑ i ∈ Finset.range 8192, g i := by
    unfold count
    rw [Finset.sum_range]
    refine Finset.sum_congr rfl fun c _ => ?_
    show hit (x (ix2 r c)) k.val = (if h : c.val < 8192 then hit (x (ix2 r ⟨c.val, h⟩)) k.val else 0)
    rw [dif_pos c.isLt]
  have htile : ∀ s ∈ Finset.range 4, tileCount (T s) p k = ∑ j ∈ Finset.range 2048, g (2048 * s + j) := by
    intro s hs
    have hs4 : s < 4 := Finset.mem_range.mp hs
    unfold tileCount
    rw [Finset.sum_range]
    refine Finset.sum_congr rfl fun c _ => ?_
    have hc : c.val < 2048 := c.isLt
    have hb : 2048 * s + c.val < 8192 := by omega
    show hit (T s (ix2 p c)) k.val = g (2048 * s + c.val)
    rw [show g (2048 * s + c.val) = hit (x (ix2 r ⟨2048 * s + c.val, hb⟩)) k.val from dif_pos hb]
    rw [← hT s hs4 c.val hc hb]
  rw [hrow, show (8192 : ℕ) = 4 * 2048 from rfl, sum_range_runs g 2048 4]
  exact Finset.sum_congr rfl fun s hs => (htile s hs).symm

/-! ## Where the windows' blocks sit -/

/-- The index maps over the grid: point `t = 4a + b` stages tile `(a, b)` of the input and holds block `(a, 0)`
    of the output. -/
theorem idx_facts : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0 :=
  (by decide +kernel : ∀ t : Fin grid0.N, _)

/-- The input tile at point `t = 4a + b`, at row `p` and column `q` of the tile, is the input array at row
    `512·a + p` and column `2048·b + q`. -/
theorem iblk_apply (c : Dev nD) (t : Fin cfg0.N) (a b : ℕ) (ha : t.val / 4 = a) (hb : t.val % 4 = b)
    (p : Fin 512) (q : Fin 2048) (h0 : 512 * a + p.val < 4096) (h1 : 2048 * b + q.val < 8192) :
    (iblk m c 0 t : Vec Ideal S512x2048 .f32) (ix2 p q)
      = m ((c : Thread nD τ).loc main_arg0) (ix2 ⟨512 * a + p.val, h0⟩ ⟨2048 * b + q.val, h1⟩) := by
  subst ha hb
  obtain ⟨e0, e1, -, -⟩ := idx_facts t
  unfold iblk
  rw [View.read_apply]
  show V m c main_arg0 _ = m (c.tc.loc main_arg0) _
  unfold V
  congr 1
  funext a
  apply Fin.ext
  match a with
  | ⟨0, _⟩ => show win0_0.index t 0 * 512 + 1 * p.val = 512 * (t.val / 4) + p.val; rw [e0]; omega
  | ⟨1, _⟩ => show win0_0.index t 1 * 2048 + 1 * q.val = 2048 * (t.val % 4) + q.val; rw [e1]; omega

/-! ## The running totals after a point -/

/-- The input tile a point stages (nothing past the grid). -/
def blkAt (c : Dev nD) (n : ℕ) : S512x2048.Idx → EReal :=
  if h : n < cfg0.N then (iblk m c 0 ⟨n, h⟩ : Vec Ideal S512x2048 .f32) else fun _ => 0

/-- The counts of that tile, per row of the tile and bin. -/
def tileAt (c : Dev nD) (n : ℕ) : S512x64.Idx → EReal :=
  fun y => tileCount (blkAt m c n) (y 0) (y 1)

/-- What a point leaves in the totals over what it found: the tile's counts over zero at the first point of a row
    of tiles, over what it found elsewhere. -/
theorem scAt_apply (c : Dev nD) (n : ℕ) (hb : n < cfg0.N) (acc : Vec Ideal S512x64 .f32) (y : S512x64.Idx) :
    Value.scAt0_0 m c n hb acc y = (if n % 4 = 0 then 0 else acc y) + tileAt m c n y := by
  have hN : n < 32 := lt_of_lt_of_eq hb (show cfg0.N = 32 from N_0)
  have hblk : blkAt m c n = (iblk m c 0 ⟨n, hb⟩ : Vec Ideal S512x2048 .f32) := dif_pos hb
  unfold Value.scAt0_0 tileAt
  rw [hblk]
  by_cases h0 : n % 4 = 0
  · by_cases h1 : n % 4 = 3
    · exfalso; omega
    · rw [dif_pos h0, dif_neg h1, if_pos h0]
      exact congrFun (sout_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N))) y
  · by_cases h1 : n % 4 = 3
    · rw [dif_neg h0, dif_pos h1, if_neg h0]
      exact congrFun (sout_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) acc) y
    · rw [dif_neg h0, dif_neg h1, if_neg h0]
      exact congrFun (sout_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) acc) y

/-- THE INVARIANT. After point `t = 4a + b` the totals are the counts of tiles `0 … b` of the row of tiles `a`,
    added up from zero. -/
theorem totals_apply (c : Dev nD) (t : Fin cfg0.N) (b : ℕ) (hb : t.val % 4 = b) (y : S512x64.Idx) :
    (outsAt0 m c t.val t.isLt).2 y
      = 0 + ∑ s ∈ Finset.range (b + 1), tileAt m c (4 * (t.val / 4) + s) y := by
  subst hb
  rw [Value.soutsAt0_0_eq m c t]
  refine Pipeline.accAt_add_apply (β := EReal) _ (Value.scAt0_0 m c) (fun _ => 0) (tileAt m c) (4 * (t.val / 4)) 3
    (fun h i => ?_) (fun n h acc i hlt hle => ?_) (t.val % 4) (by omega) _ y
  · rw [scAt_apply, if_pos (by omega)]
  · rw [scAt_apply, if_neg (by omega)]

/-- The totals of a whole row of tiles, over the row length, are the histogram's entry: the four tiles' counts add up
    to the row's count. -/
theorem entry_eq (x : S4096x8192.Idx → EReal) (T : ℕ → (S512x2048.Idx → EReal)) (a : ℕ) (p : Fin 512) (k : Fin 64)
    (hr : 512 * a + p.val < 4096)
    (hT : ∀ s, s < 4 → ∀ (j : ℕ) (hj : j < 2048) (h : 2048 * s + j < 8192),
      T s (ix2 p ⟨j, hj⟩) = x (ix2 ⟨512 * a + p.val, hr⟩ ⟨2048 * s + j, h⟩)) :
    Ideal.div (0 + ∑ s ∈ Finset.range (3 + 1), tileCount (T s) p k) (Ideal.ofBits .f32 0x46000000#32)
      = G x (ix2 ⟨512 * a + p.val, hr⟩ k) := by
  rw [zero_add]
  show _ = Ideal.div (count x ⟨512 * a + p.val, hr⟩ k) _
  rw [count_eq_tiles x ⟨512 * a + p.val, hr⟩ k T p hT]

/-! ## What a flushing point writes back -/

/-- An index of the output array is in point `t`'s block iff each coordinate is in the block's range on its axis. -/
theorem mem_blk1 (t : Fin cfg0.N) (i : S4096x64.Idx) :
    i ∈ ((cfg0.win 1).blk t).view.set ↔ ∀ a : Fin 2, win0_1.index t a * S512x64.size a ≤ (i a).val
      ∧ (i a).val < win0_1.index t a * S512x64.size a + S512x64.size a := by
  show i ∈ ((View.whole main_v0).slice (win0_1.rect t)).set ↔ _
  rw [View.set_slice_whole, Rect.mem_set_unit]
  exact Iff.rfl

/-- The last point of a row of tiles writes back its block of the histogram: the totals it leaves are the whole
    row's counts, and the output block is those totals over the row length. -/
theorem flushed_eq (c : Dev nD) (t : Fin cfg0.N) (hf : (cfg0.win 1).flush t = true) :
    (dats m 0 c).flushed 1 t
      = ((cfg0.win 1).blk t).view.read (Elt Ideal) (G (m ((c : Thread nD τ).loc main_arg0))) := by
  have hN : t.val < 32 := lt_of_lt_of_eq t.isLt (show cfg0.N = 32 from N_0)
  have h3 : t.val % 4 = 3 := (flush0_1 t).mp hf
  have h0 : ¬t.val % 4 = 0 := by omega
  obtain ⟨-, -, e2, e3⟩ := idx_facts t
  have hs : (outsAt0 m c t.val t.isLt).2
      = addTile (outsAt0 m c (t.val - 1) (Nat.lt_of_le_of_lt (Nat.sub_le _ _) t.isLt)).2 (iblk m c 0 t) := by
    rw [outsAt0_C m c t h0 h3]
    exact sout_C c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h3) (iblk m c 0 t) (outsAt0 m c (t.val - 1) (Nat.lt_of_le_of_lt (Nat.sub_le _ _) t.isLt)).2
  rw [Value.flushed1_C m c t h0 h3,
    out_C c (grid0.coords t) (ms0_0 t) (hs0_0 t) (ms0_1 t) (hs0_1 t) scM0_0 (Memref.isWhole_whole _) scM0_1 (Memref.isWhole_whole _) (fun h => h0 ((hcond0_0 t).mp h)) ((hcond0_1 t).mpr h3) (iblk m c 0 t) (outsAt0 m c (t.val - 1) (Nat.lt_of_le_of_lt (Nat.sub_le _ _) t.isLt)).2,
    ← hs]
  funext j
  show Ideal.div ((outsAt0 m c t.val t.isLt).2 j) (Ideal.ofBits .f32 0x46000000#32)
    = G (m ((c : Thread nD τ).loc main_arg0)) (((cfg0.win 1).blk t).view.emb j)
  have hj0 : (j 0).val < 512 := (j 0).isLt
  have hr : 512 * (t.val / 4) + (j 0).val < 4096 := by omega
  have hemb : ((cfg0.win 1).blk t).view.emb j
      = ix2 (⟨512 * (t.val / 4) + (j 0).val, hr⟩ : Fin 4096) (j 1 : Fin 64) := by
    funext a; apply Fin.ext
    match a with
    | ⟨0, _⟩ => show win0_1.index t (0 : Fin 2) * 512 + 1 * (j 0).val = 512 * (t.val / 4) + (j 0).val; rw [e2]; omega
    | ⟨1, _⟩ => show win0_1.index t (1 : Fin 2) * 64 + 1 * (j 1).val = (j 1).val; rw [e3]; omega
  rw [hemb, totals_apply m c t 3 h3 j]
  refine entry_eq (m ((c : Thread nD τ).loc main_arg0)) (fun s => blkAt m c (4 * (t.val / 4) + s)) (t.val / 4) (j 0) (j 1) hr
    (fun s hs q hq h => ?_)
  have hlt : 4 * (t.val / 4) + s < cfg0.N := lt_of_lt_of_eq (by omega : _ < 32) (show cfg0.N = 32 from N_0).symm
  rw [show blkAt m c (4 * (t.val / 4) + s) = (iblk m c 0 ⟨4 * (t.val / 4) + s, hlt⟩ : Vec Ideal S512x2048 .f32) from dif_pos hlt]
  exact iblk_apply m c ⟨4 * (t.val / 4) + s, hlt⟩ (t.val / 4) s (by show (4 * (t.val / 4) + s) / 4 = t.val / 4; omega)
    (by show (4 * (t.val / 4) + s) % 4 = s; omega) (j 0) ⟨q, hq⟩ hr h

/-! ## Every entry of the output is written back once, by the last point of its row of tiles -/

theorem cover (i : S4096x64.Idx) :
    ∃ t : Fin cfg0.N, (cfg0.win 1).flush t = true ∧ i ∈ ((cfg0.win 1).blk t).view.set := by
  have hi0 : (i 0).val < 4096 := (i 0).isLt
  have hi1 : (i 1).val < 64 := (i 1).isLt
  have hlt : 4 * ((i 0).val / 512) + 3 < cfg0.N :=
    lt_of_lt_of_eq (by omega : _ < 32) (show cfg0.N = 32 from N_0).symm
  refine ⟨⟨4 * ((i 0).val / 512) + 3, hlt⟩,
    (flush0_1 _).mpr (by show (4 * ((i 0).val / 512) + 3) % 4 = 3; omega), ?_⟩
  obtain ⟨-, -, e2, e3⟩ := idx_facts ⟨4 * ((i 0).val / 512) + 3, hlt⟩
  have e2' : win0_1.index ⟨4 * ((i 0).val / 512) + 3, hlt⟩ (0 : Fin 2) = (i 0).val / 512 := by
    rw [e2]; show (4 * ((i 0).val / 512) + 3) / 4 = _; omega
  rw [mem_blk1]
  intro a
  match a with
  | ⟨0, _⟩ =>
    show win0_1.index ⟨4 * ((i 0).val / 512) + 3, hlt⟩ (0 : Fin 2) * 512 ≤ (i 0).val
      ∧ (i 0).val < win0_1.index ⟨4 * ((i 0).val / 512) + 3, hlt⟩ (0 : Fin 2) * 512 + 512
    rw [e2']; omega
  | ⟨1, _⟩ =>
    show win0_1.index ⟨4 * ((i 0).val / 512) + 3, hlt⟩ (1 : Fin 2) * 64 ≤ (i 1).val
      ∧ (i 1).val < win0_1.index ⟨4 * ((i 0).val / 512) + 3, hlt⟩ (1 : Fin 2) * 64 + 64
    rw [e3]; omega

/-! ## The whole result -/

/-- After the run the output array is the histogram of the input array. -/
theorem final (c : Dev nD) :
    (dats m 0 c).arrAt 1 cfg0.N = G (m ((c : Thread nD τ).loc main_arg0)) :=
  (dats m 0 c).arrAt_eq_of_cover 1 (G (m ((c : Thread nD τ).loc main_arg0))) (fun t hf => flushed_eq m c t hf) cover

/-- The kernel's run: it ends with the histogram of its argument in the result array and the argument unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0) = Cert.Hist.G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.Hist

end
-- ==== Proof.LibScatterAddRead.lean ====
/-
  An accumulating scatter read at a position, at the ideal values.

  A host scatter whose body adds (a segment sum, `x.at[idx].add(u)`) leaves at each position of the operand the
  operand's entry plus the sum of the updates that land there.  Written with the landing test inside the sum — every
  update contributes itself where it lands on the position and zero elsewhere — the sum runs over ALL updates, so it
  can be re-indexed by any bijection of the updates and compared summand by summand.

  The statement is over arbitrary shapes, element formats and index widths.  Use it by `rw` on a scatter over
  variables or over a program's operands, and compare summands with `if_congr`; do not restate the sum at literal
  shapes of millions of entries, and do not unfold the scatter there.
-/
import Idealize.ShloMosaic.PureOps
import Idealize.ShloMosaic.PureOps.Ideal

noncomputable section

namespace Cert.Lib.ScatterAddRead

open Idealize.ShloMosaic

/-- An accumulating scatter at a position: the operand there plus every update, counted where it lands there. -/
theorem scatterAdd_at {s si u : Shape} {φ : FTy} {w : Nat} (d : ScatterDims s si u) (v : FVec Ideal s φ)
    (idx : IVec si w) (upd : FVec Ideal u φ) (p : s.Idx) :
    Host.scatterAdd (F := Ideal) d v idx upd p
      = v p + ∑ j, if d.resultIdx? j idx = some p then upd j else 0 := by
  unfold Host.scatterAdd
  rw [Ideal.hostScatterAdd_def]
  unfold Ideal.hostScatterAdd
  rw [Finset.sum_filter]

end Cert.Lib.ScatterAddRead

end
-- ==== Proof.RefValue.lean ====
/-
  The reference program computes the histogram `G`.

  The reference clamps the bin of every entry to `[0, 63]`, adds `64 · row` to it, and scatters a one to that flat
  position of a zero array of length `4096 · 64`; the result, reshaped to `4096 × 64`, is divided by the row length.
  Position `r · 64 + k` therefore receives one unit from every entry `(row, col)` with `row = r` whose bin is `k`:
  the count of row `r` in bin `k`.
-/
import proofs.«108282_j3547642986677_2_alg».proof.Proof.Gen.ReferenceIdeal.Read
import proofs.«108282_j3547642986677_2_alg».proof.Proof.Spec
import Idealize.ShloMosaic.Lib.IdealHost
import proofs.«108282_j3547642986677_2_alg».proof.Proof.LibScatterAddRead

noncomputable section

namespace Cert.Hist.RefValue

open Cert.ReferenceIdeal Cert.ReferenceIdeal.Gen Idealize.ShloMosaic Idealize.ShloMosaic.ValueIdx
  Idealize.ShloMosaic.StableHlo Cert.Lib.ScatterAddRead

/-- The flat index word of entry `n` of the flattened array: `64 · row` plus the clamped bin of the entry. -/
theorem flat_word (x : (⟨S4096x8192, .f32⟩ : BufTy).Contents (Elt Ideal)) (n : S33554432.Idx) :
    Read.val_main_v13 (F := Ideal) x n
      = IntOp.addi (IntOp.muli (BitVec.ofNat 32 ((n 0).val / 8192)) 64#32) (binOf (x (Read.idx_main_v13 n))) := by
  rw [Read.val_main_v13_apply, Read.val_main_v12_apply, Read.val_main_v11_apply, Read.val_main_v10_apply, Read.val_main_v8_apply,
    Read.val_main_v9_apply, Read.val_main_v7_apply, Read.val_main_c_2_apply, Read.val_main_v6_apply, Read.val_main_call0_v4_apply,
    Read.val_main_call0_v3_apply, Read.val_main_c_1_apply, Read.val_main_call0_v2_apply, Read.val_main_call0_v1_apply,
    Read.val_main_call0_v0_apply, Read.val_main_c_apply, Read.val_main_v5_apply, Read.val_main_v4_apply, Read.val_main_v3_apply,
    Read.val_main_v1_apply, Read.val_main_v0_apply, Read.val_main_cst_apply, Read.val_main_v2_apply, Read.val_main_cst_0_apply]
  rfl

/-- The scatter's dimension numbers: no window axes, operand axis 0 inserted and named by the one index component. -/
abbrev sd : ScatterDims S262144 S33554432x1 S33554432 := scatter_S262144_S33554432x1_S33554432_n_0_0_1

/-- The position `[n, 0]` of the index array at which update `n` reads its start index. -/
abbrev startAt (j : S33554432.Idx) : S33554432x1.Idx :=
  fun a => match a with | ⟨0, _⟩ => ⟨(j 0).val, (j 0).isLt⟩ | ⟨1, _⟩ => ⟨0, Nat.one_pos⟩

/-- Update `j` lands on position `p` exactly when its index word, read signed, is `p`. -/
theorem lands_iff {w : Nat} (idx : IVec S33554432x1 w) (j : S33554432.Idx) (p : S262144.Idx) :
    sd.resultIdx? j idx = some p ↔ (idx (startAt j)).toInt = ((p 0).val : Int) := by
  have hw : ∀ a, sd.window j a = 0 := by
    intro a
    obtain rfl : a = 0 := Subsingleton.elim _ _
    unfold ScatterDims.window
    rw [dif_neg (by decide)]
  have hs : ∀ a, sd.start j idx a = (idx (startAt j)).toInt := by
    intro a
    obtain rfl : a = 0 := Subsingleton.elim _ _
    unfold ScatterDims.start
    rw [dif_pos (show (0 : Fin 1) ∈ sd.scatterDimsToOperandDims from List.mem_singleton.mpr rfl)]
    congr 2
    funext b; refine Fin.ext ?_
    match b with
    | ⟨0, _⟩ => rfl
    | ⟨1, _⟩ => rfl
  have hp : (p 0).val < 262144 := (p 0).isLt
  unfold ScatterDims.resultIdx?
  simp only [hw, hs, Nat.cast_zero, Int.add_zero]
  split
  · rename_i h
    have h0 := h 0
    have hsz : ((S262144.size 0 : Nat) : Int) = 262144 := rfl
    rw [Option.some.injEq]
    constructor
    · intro e
      have := congrArg (fun f => (f 0).val) e
      simp only at this
      omega
    · intro e
      funext a
      obtain rfl : a = 0 := Subsingleton.elim _ _
      refine Fin.ext ?_
      show ((idx (startAt j)).toInt).toNat = (p 0).val
      omega
  · rename_i h
    constructor
    · intro e; exact absurd e (by simp)
    · intro e
      exfalso; apply h
      intro a
      obtain rfl : a = 0 := Subsingleton.elim _ _
      have hsz : ((S262144.size 0 : Nat) : Int) = 262144 := rfl
      rw [hsz]; omega

/-- A word clamped to `[0, 63]` is, read signed, between 0 and 63. -/
theorem clamp_toInt (v : BitVec 32) :
    0 ≤ (IntOp.minsi 63#32 (IntOp.maxsi 0#32 v)).toInt ∧ (IntOp.minsi 63#32 (IntOp.maxsi 0#32 v)).toInt ≤ 63 := by
  have h63 : (63#32 : BitVec 32).toInt = 63 := by decide
  have h0 : (0#32 : BitVec 32).toInt = 0 := by decide
  unfold IntOp.minsi IntOp.maxsi
  by_cases h1 : v.slt 0#32 = true
  · rw [if_pos h1]
    have h2 : ¬ ((63#32 : BitVec 32).slt 0#32 = true) := by decide
    rw [if_neg h2, h0]; omega
  · rw [if_neg h1]
    have h1' : ¬ v.toInt < (0#32 : BitVec 32).toInt := fun h => h1 (BitVec.slt_iff_toInt_lt.2 h)
    by_cases h2 : (63#32 : BitVec 32).slt v = true
    · rw [if_pos h2, h63]; omega
    · rw [if_neg h2]
      have h2' : ¬ (63#32 : BitVec 32).toInt < v.toInt := fun h => h2 (BitVec.slt_iff_toInt_lt.2 h)
      omega

/-- So its unsigned value is at most 63. -/
theorem clamp_toNat (v : BitVec 32) : (IntOp.minsi 63#32 (IntOp.maxsi 0#32 v)).toNat ≤ 63 := by
  obtain ⟨h0, h1⟩ := clamp_toInt v
  generalize IntOp.minsi 63#32 (IntOp.maxsi 0#32 v) = b at h0 h1
  have hb : b.toNat < 2 ^ 32 := b.isLt
  rw [BitVec.toInt_eq_toNat_cond] at h0 h1
  split at h0 <;> omega

theorem binOf_toNat (v : EReal) : (binOf v).toNat ≤ 63 := clamp_toNat _

/-- `64 · row` plus a bin below 64 does not wrap: read signed, the flat index word is `row · 64 + bin`. -/
theorem word_toInt (row : Nat) (hrow : row < 4096) (b : BitVec 32) (hb : b.toNat ≤ 63) :
    (IntOp.addi (IntOp.muli (BitVec.ofNat 32 row) 64#32) b).toInt = ((row * 64 + b.toNat : Nat) : Int) := by
  have hn : (IntOp.addi (IntOp.muli (BitVec.ofNat 32 row) 64#32) b).toNat = row * 64 + b.toNat := by
    unfold IntOp.addi IntOp.muli
    rw [BitVec.toNat_add, BitVec.toNat_mul, BitVec.toNat_ofNat]
    have : (64#32 : BitVec 32).toNat = 64 := by decide
    rw [this]
    omega
  rw [BitVec.toInt_eq_toNat_cond, hn, if_pos (by omega)]

/-- A word below 64 is the word of a number `k` below 64 exactly when its unsigned value is `k`. -/
theorem word_eq_iff (b : BitVec 32) (k : Nat) (hk : k < 64) : b = BitVec.ofNat 32 k ↔ b.toNat = k := by
  constructor
  · intro h; rw [h, BitVec.toNat_ofNat]; omega
  · intro h; apply BitVec.eq_of_toNat_eq; rw [BitVec.toNat_ofNat]; omega

/-- The flat positions are the (row, column) pairs: position `n` is entry `(n / 8192, n % 8192)`. -/
def flatEquiv : S33554432.Idx ≃ S4096x8192.Idx where
  toFun := Read.idx_main_v13
  invFun i := ix1 ⟨(i 0).val * 8192 + (i 1).val, by
    have h0 : (i 0).val < 4096 := (i 0).isLt
    have h1 : (i 1).val < 8192 := (i 1).isLt
    omega⟩
  left_inv n := by
    funext a
    match a with
    | ⟨0, _⟩ =>
      refine Fin.ext ?_
      show (n 0).val / 8192 * 8192 + (n 0).val % 8192 = (n 0).val
      omega
  right_inv i := by
    have h0 : (i 0).val < 4096 := (i 0).isLt
    have h1 : (i 1).val < 8192 := (i 1).isLt
    funext a
    match a with
    | ⟨0, _⟩ =>
      refine Fin.ext ?_
      show ((i 0).val * 8192 + (i 1).val) / 8192 = (i 0).val
      omega
    | ⟨1, _⟩ =>
      refine Fin.ext ?_
      show ((i 0).val * 8192 + (i 1).val) % 8192 = (i 1).val
      omega

/-- Entry `n` of the flattened array lands on position `r · 64 + k` exactly when it lies in row `r` and its bin
    is `k`. -/
theorem lands_on_iff (x : (⟨S4096x8192, .f32⟩ : BufTy).Contents (Elt Ideal)) (n : S33554432.Idx)
    (i : S4096x64.Idx) :
    sd.resultIdx? n (Read.val_main_v16 (F := Ideal) x) = some (Read.idx_main_v18 i)
      ↔ (Read.idx_main_v13 n 0).val = (i 0).val ∧ binOf (x (Read.idx_main_v13 n)) = BitVec.ofNat 32 (i 1).val := by
  have hi0 : (i 0).val < 4096 := (i 0).isLt
  have hi1 : (i 1).val < 64 := (i 1).isLt
  have hn : (n 0).val < 33554432 := (n 0).isLt
  have hrow : (n 0).val / 8192 < 4096 := by omega
  have hidx : Read.idx_main_v16 (startAt n) = n := by
    funext a
    match a with
    | ⟨0, _⟩ => rfl
  rw [lands_iff, Read.val_main_v16_apply, hidx, flat_word,
    word_toInt _ hrow _ (binOf_toNat _), word_eq_iff _ _ hi1]
  have hb := binOf_toNat (x (Read.idx_main_v13 n))
  show (((n 0).val / 8192 * 64 + (binOf (x (Read.idx_main_v13 n))).toNat : Nat) : Int) = (((i 0).val * 64 + (i 1).val : Nat) : Int)
    ↔ (n 0).val / 8192 = (i 0).val ∧ (binOf (x (Read.idx_main_v13 n))).toNat = (i 1).val
  omega

/-- The scattered array at position `r · 64 + k` is the count of row `r` in bin `k`. -/
theorem scatter_at (x : (⟨S4096x8192, .f32⟩ : BufTy).Contents (Elt Ideal)) (i : S4096x64.Idx) :
    Read.val_main_v17 (F := Ideal) x (Read.idx_main_v18 i) = count x (i 0) (i 1) := by
  have hz : Read.val_main_v15 (F := Ideal) (Read.idx_main_v18 i) = 0 := by
    rw [Read.val_main_v15_apply, Read.val_main_cst_4_apply]; exact Ideal.ofBits_zero_f32
  have ho : ∀ j, Read.val_main_v14 (F := Ideal) j = 1 := by
    intro j; rw [Read.val_main_v14_apply, Read.val_main_cst_3_apply]; exact Ideal.ofBits_one_f32
  -- one unit from every entry of row `r` whose bin is `k`, as a function of the entry
  let f : (⟨2, ![4096, 8192]⟩ : Shape).Idx → EReal := fun e =>
    if (e 0).val = (i 0).val ∧ binOf (x e) = BitVec.ofNat 32 (i 1).val then 1 else 0
  unfold Read.val_main_v17
  rw [scatterAdd_at, hz, zero_add]
  refine (Finset.sum_congr rfl (g := fun n => f (flatEquiv n)) (fun n _ => ?_)).trans ?_
  · rw [ho n]
    exact if_congr (lands_on_iff x n i) rfl rfl
  refine (Equiv.sum_comp flatEquiv f).trans ?_
  refine (sum_idx2 f).trans ?_
  refine (Finset.sum_eq_single (i 0) (fun a _ hne => ?_) (fun h => absurd (Finset.mem_univ _) h)).trans ?_
  · refine Finset.sum_eq_zero (fun c _ => ?_)
    show (if a.val = (i 0).val ∧ _ then (1 : EReal) else 0) = 0
    rw [if_neg]
    rintro ⟨h, _⟩
    exact hne (Fin.ext h)
  · unfold count
    refine Finset.sum_congr rfl (fun c _ => ?_)
    unfold hit
    show (if (i 0).val = (i 0).val ∧ _ then (1 : EReal) else 0) = _
    exact if_congr (by simp) rfl rfl

end Cert.Hist.RefValue

namespace Cert.Hist

open Cert.ReferenceIdeal Idealize.ShloMosaic

/-- The reference computes the histogram. -/
theorem ref_is_G (x : (⟨Cert.ReferenceIdeal.S4096x8192, .f32⟩ : BufTy).Contents (Elt Ideal)) :
    Cert.ReferenceIdeal.Read.val_main_v20 (F := Ideal) x = Cert.Hist.G x := by
  funext i
  rw [Read.val_main_v20_apply, Read.val_main_v19_apply, Read.val_main_cst_5_apply, Read.val_main_v18_apply,
    RefValue.scatter_at]
  rfl

end Cert.Hist

end
-- ==== Proof.lean ====
/-
  A per-row histogram, computed two ways.

  The input is a 4096 × 8192 array.  Every entry is given a bin: `⌊(v + 3) · s⌋` with `s` the float nearest 64/6,
  converted to a signed 32-bit integer and clamped to `[0, 63]`.  The result is the 4096 × 64 array whose entry
  `(r, k)` is the number of entries of row `r` in bin `k`, divided by the row length 8192 (`Cert.Hist.G`).

  The kernel walks the array in tiles of 512 × 2048, four to a row of tiles.  At each tile it forms, bin by bin, the
  matrix of zeros and ones "this entry is in bin k" and multiplies it by a column of ones, which counts the tile's
  entries of each row in the bin; it adds the counts to running totals that start from zero at the first tile of a
  row of tiles, and at the fourth tile writes the totals, divided by 8192, to its block of the result.  Four runs of
  2048 columns make up the 8192 columns of a row, so the totals are the row's counts.

  The reference adds `64 · row` to every entry's bin and scatters a one to that flat position of a zero array of
  length 4096 · 64, then reshapes and divides by 8192.  The flat positions `64 · row + bin` never wrap, so position
  `64 · r + k` receives exactly one unit per entry of row `r` in bin `k`.

  Both programs bucketize with the same operations and the same literals, and all sums are sums of zeros and ones:
  the two results are the same function of the input on all extended reals, and the precondition is not used.
  The ideal pass rewrote nothing, so the idealized kernel is the kernel's own text read at the exact values.
-/
import proofs.«108282_j3547642986677_2_alg».proof.Defs
import proofs.«108282_j3547642986677_2_alg».proof.Proof.Gen.Kernel
import proofs.«108282_j3547642986677_2_alg».proof.Proof.Gen.Kernel.Skeleton
import proofs.«108282_j3547642986677_2_alg».proof.Proof.Gen.Kernel.Launch
import proofs.«108282_j3547642986677_2_alg».proof.Proof.Gen.Kernel.Points
import proofs.«108282_j3547642986677_2_alg».proof.Proof.Gen.Kernel.Frame
import proofs.«108282_j3547642986677_2_alg».proof.Proof.Gen.KernelIdeal
import proofs.«108282_j3547642986677_2_alg».proof.Proof.Gen.KernelIdeal.Skeleton
import proofs.«108282_j3547642986677_2_alg».proof.Proof.Gen.KernelIdeal.Launch
import proofs.«108282_j3547642986677_2_alg».proof.Proof.Gen.KernelIdeal.Points
import proofs.«108282_j3547642986677_2_alg».proof.Proof.Gen.KernelIdeal.Frame
import proofs.«108282_j3547642986677_2_alg».proof.Proof.Gen.ReferenceIdeal
import proofs.«108282_j3547642986677_2_alg».proof.Proof.Gen.KernelIdeal.Value
import proofs.«108282_j3547642986677_2_alg».proof.Proof.Gen.ReferenceIdeal.Run
import proofs.«108282_j3547642986677_2_alg».proof.Proof.Gen.ReferenceIdeal.Read
import proofs.«108282_j3547642986677_2_alg».proof.Proof.Gen.Pre_finite_inputs
import proofs.«108282_j3547642986677_2_alg».proof.Proof.KernelRun
import proofs.«108282_j3547642986677_2_alg».proof.Proof.RefValue
import Idealize.ShloMosaic.Adequacy
import Idealize.ShloMosaic.Init

noncomputable section

namespace Cert.Proof

open Idealize.ShloMosaic Idealize.ShloMosaic.TcCoe Idealize.SL.Sem

/-- The kernel, read word by word, runs and leaves its argument as it found it. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- The reference runs and leaves its argument as it found it: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the argument both programs end with the histogram of the argument. -/
theorem algebraic : Cert.algebraic_KernelIdeal_ReferenceIdeal := by
  intro m ρ m' ρ' _ hagree
  refine ⟨fun c => Cert.Hist.G (m ((c.tc : Thread Cert.KernelIdeal.nD Cert.KernelIdeal.τ).loc Cert.KernelIdeal.main_arg0)),
    Cert.Hist.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Hist.ref_is_G, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
